-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_784" .f32 0x3AA72F05#32 ((1 / 784 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S64x784 : Shape := ⟨2, ![64, 784]⟩
abbrev S1x64 : Shape := ⟨2, ![1, 64]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S64x784 : S_.BroadcastsInDim S64x784 (![] : Fin 0 → Fin S64x784.rank)
  reducesTo_S64x784_S_d0_1 : S64x784.ReducesTo [0, 1] S_
  bcast_S_S1x64 : S_.BroadcastsInDim S1x64 (![] : Fin 0 → Fin S1x64.rank)
  reducesTo_S1x64_S_d0_1 : S1x64.ReducesTo [0, 1] S_

variable [Facts]

def fn {F : FTy → Type} [FloatOps F] (main_arg0 : FVec F S65536x784 .f32) (main_arg1 : FVec F S64x784 .f32) (main_arg2 : FVec F S1x64 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S64x784 .f32 := Host.absf main_arg1
  let main_cst_0 : FVec F S_ .f32 := constant S_ .f32 0x7F800000#32
  let main_v5 : FVec F S64x784 .f32 := broadcastInDim S64x784 ![] bcast_S_S64x784 main_cst_0
  let main_v6 : IVec S64x784 1 := cmpf .olt main_v4 main_v5
  let main_c_1 : IVec S_ 1 := constantI S_ 1 1#1
  let main_v7 : IVec S_ 1 := (fun x v => Host.reduce IntOp.andi x v reducesTo_S64x784_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  main_v13
-- ==== Kernel.lean ====
abbrev S65536x784 : Shape := ⟨2, ![65536, 784]⟩
abbrev S64x784 : Shape := ⟨2, ![64, 784]⟩
abbrev S1x64 : Shape := ⟨2, ![1, 64]⟩
abbrev S784x64 : Shape := ⟨2, ![784, 64]⟩
abbrev S_ : Shape := ⟨0, ![]⟩
abbrev S784x1 : Shape := ⟨2, ![784, 1]⟩
abbrev S784x65 : Shape := ⟨2, ![784, 65]⟩
abbrev S64 : Shape := ⟨1, ![64]⟩
abbrev S1 : Shape := ⟨1, ![1]⟩
abbrev S1x1 : Shape := ⟨2, ![1, 1]⟩
abbrev S65536x1 : Shape := ⟨2, ![65536, 1]⟩
abbrev S1024x784 : Shape := ⟨2, ![1024, 784]⟩
abbrev S1024x1 : Shape := ⟨2, ![1024, 1]⟩
abbrev S1024x65 : Shape := ⟨2, ![1024, 65]⟩
abbrev S1024x64 : Shape := ⟨2, ![1024, 64]⟩
abbrev S1024 : Shape := ⟨1, ![1024]⟩

abbrev nBuf : Space → Nat
  | .hbm => 17
  | .vmem => 8
  | .smem => 0
  | _ => 0

abbrev bufTy : (tb : Table) → Fin (tcTables nBuf tb) → BufTy
  | .hbm, ⟨0, _⟩ => ⟨S65536x784, .f32⟩
  | .hbm, ⟨1, _⟩ => ⟨S64x784, .f32⟩
  | .hbm, ⟨2, _⟩ => ⟨S1x64, .f32⟩
  | .hbm, ⟨3, _⟩ => ⟨S784x64, .f32⟩
  | .hbm, ⟨4, _⟩ => ⟨S_, .f32⟩
  | .hbm, ⟨5, _⟩ => ⟨S784x64, .f32⟩
  | .hbm, ⟨6, _⟩ => ⟨S784x64, .f32⟩
  | .hbm, ⟨7, _⟩ => ⟨S_, .f32⟩
  | .hbm, ⟨8, _⟩ => ⟨S784x1, .f32⟩
  | .hbm, ⟨9, _⟩ => ⟨S784x65, .f32⟩
  | .hbm, ⟨10, _⟩ => ⟨S_, .f32⟩
  | .hbm, ⟨11, _⟩ => ⟨S64, .f32⟩
  | .hbm, ⟨12, _⟩ => ⟨S1x64, .f32⟩
  | .hbm, ⟨13, _⟩ => ⟨S_, .f32⟩
  | .hbm, ⟨14, _⟩ => ⟨S1, .f32⟩
  | .hbm, ⟨15, _⟩ => ⟨S1x1, .f32⟩
  | .hbm, ⟨16, _⟩ => ⟨S65536x1, .f32⟩
  | .local _ .vmem, ⟨0, _⟩ => ⟨S1024x784, .f32⟩
  | .local _ .vmem, ⟨1, _⟩ => ⟨S1024x784, .f32⟩
  | .local _ .vmem, ⟨2, _⟩ => ⟨S784x65, .f32⟩
  | .local _ .vmem, ⟨3, _⟩ => ⟨S1x64, .f32⟩
  | .local _ .vmem, ⟨4, _⟩ => ⟨S1x64, .f32⟩
  | .local _ .vmem, ⟨5, _⟩ => ⟨S1x1, .f32⟩
  | .local _ .vmem, ⟨6, _⟩ => ⟨S1024x1, .f32⟩
  | .local _ .vmem, ⟨7, _⟩ => ⟨S1024x1, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x65 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S64x784_S784x64_1_0 : S64x784.Transposes [1, 0] S784x64
  bcast_S_S784x64 : S_.BroadcastsInDim S784x64 (![] : Fin 0 → Fin S784x64.rank)
  bcast_S_S784x1 : S_.BroadcastsInDim S784x1 (![] : Fin 0 → Fin S784x1.rank)
  concatenates_S784x64_S784x1_S784x65_d1 : Shape.Concatenates [S784x64, S784x1] S784x65 1
  reducesTo_S64x784_S64_d1 : S64x784.ReducesTo [1] S64
  h_S_ : 0 < S_.numel
  shapeCasts_S64_S1x64 : S64.ShapeCasts S1x64
  reducesTo_S1x64_S1_d1 : S1x64.ReducesTo [1] S1
  shapeCasts_S1_S1x1 : S1.ShapeCasts S1x1
  inb_S1024x784_S1024x784_0_0 : ∀ a, (![0, 0] : Fin 2 → Nat) a + S1024x784.size a ≤ S1024x784.size a
  h_S1024x784 : 0 < S1024x784.numel
  inb_S784x65_S784x65_0_0 : ∀ a, (![0, 0] : Fin 2 → Nat) a + S784x65.size a ≤ S784x65.size a
  h_S784x65 : 0 < S784x65.numel
  shapeCasts_S784x65_S784x65 : S784x65.ShapeCasts S784x65
  slices_S1024x65_o0_0_S1024x64 : S1024x65.Slices ![0, 0] S1024x64
  slices_S1024x65_o0_64_S1024x1 : S1024x65.Slices ![0, 64] S1024x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1024x1_S1024x64 : S1024x1.Broadcasts S1024x64
  broadcasts_S1x64_S1024x64 : S1x64.Broadcasts S1024x64
  natLt_1_32 : 1 < 32
  reduces_S1024x64_S1024 : S1024x64.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x784_S784x65_S1024x65_1_0_0_1_n_n_wf : DotDims.WF S1024x784 S784x65 S1024x65 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S65536x784.size a
  hwx0_0 : ∀ i : grid0.Coords, EltTy.bits .f32 = 32 ∨ (Rect.block (s := S65536x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x65.size a ≤ S784x65.size a
  hwx0_1 : ∀ i : grid0.Coords, EltTy.bits .f32 = 32 ∨ (Rect.block (s := S784x65) S784x65.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S65536x1.size a
  hwx0_5 : ∀ i : grid0.Coords, EltTy.bits .f32 = 32 ∨ (Rect.block (s := S65536x1) S1024x1.size (cc0_transform_5 i) (hinb0_5 i)).WholeWords (EltTy.packing .f32)

variable [Facts₀]

def dot_S1024x784_S784x65_S1024x65_1_0_0_1_n_n : DotDims S1024x784 S784x65 S1024x65 where
  lhsContracting := [1]
  rhsContracting := [0]
  lhsNonContracting := [0]
  rhsNonContracting := [1]
  lhsBatch := []
  rhsBatch := []
  wf := dot_S1024x784_S784x65_S1024x65_1_0_0_1_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S784x65.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x784 : Shape := ⟨2, ![65536, 784]⟩
abbrev S64x784 : Shape := ⟨2, ![64, 784]⟩
abbrev S1x64 : Shape := ⟨2, ![1, 64]⟩
abbrev S_ : Shape := ⟨0, ![]⟩
abbrev S65536 : Shape := ⟨1, ![65536]⟩
abbrev S65536x1 : Shape := ⟨2, ![65536, 1]⟩
abbrev S64 : Shape := ⟨1, ![64]⟩
abbrev S65536x64 : Shape := ⟨2, ![65536, 64]⟩
abbrev S784x64 : Shape := ⟨2, ![784, 64]⟩
abbrev S1 : Shape := ⟨1, ![1]⟩
abbrev S1x1 : Shape := ⟨2, ![1, 1]⟩
abbrev S64x1 : Shape := ⟨2, ![64, 1]⟩

abbrev nBuf : Space → Nat
  | .hbm => 78
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S64x784, .f32⟩
  | .hbm, ⟨2, _⟩ => ⟨S1x64, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S_, .f32⟩
  | .hbm, ⟨7, _⟩ => ⟨S64, .f32⟩
  | .hbm, ⟨8, _⟩ => ⟨S1x64, .f32⟩
  | .hbm, ⟨9, _⟩ => ⟨S65536x64, .f32⟩
  | .hbm, ⟨10, _⟩ => ⟨S65536x64, .f32⟩
  | .hbm, ⟨11, _⟩ => ⟨S65536x64, .f32⟩
  | .hbm, ⟨12, _⟩ => ⟨S784x64, .f32⟩
  | .hbm, ⟨13, _⟩ => ⟨S65536x64, .f32⟩
  | .hbm, ⟨14, _⟩ => ⟨S_, .f32⟩
  | .hbm, ⟨15, _⟩ => ⟨S65536x64, .f32⟩
  | .hbm, ⟨16, _⟩ => ⟨S65536x64, .f32⟩
  | .hbm, ⟨17, _⟩ => ⟨S65536x64, .f32⟩
  | .hbm, ⟨18, _⟩ => ⟨S_, .f32⟩
  | .hbm, ⟨19, _⟩ => ⟨S65536x64, .f32⟩
  | .hbm, ⟨20, _⟩ => ⟨S65536x64, .f32⟩
  | .hbm, ⟨21, _⟩ => ⟨S_, .f32⟩
  | .hbm, ⟨22, _⟩ => ⟨S65536x64, .f32⟩
  | .hbm, ⟨23, _⟩ => ⟨S65536x64, .f32⟩
  | .hbm, ⟨24, _⟩ => ⟨S_, .f32⟩
  | .hbm, ⟨25, _⟩ => ⟨S65536x64, .f32⟩
  | .hbm, ⟨26, _⟩ => ⟨S65536x64, .f32⟩
  | .hbm, ⟨27, _⟩ => ⟨S65536x64, .f32⟩
  | .hbm, ⟨28, _⟩ => ⟨S65536x64, .f32⟩
  | .hbm, ⟨29, _⟩ => ⟨S_, .f32⟩
  | .hbm, ⟨30, _⟩ => ⟨S65536x64, .f32⟩
  | .hbm, ⟨31, _⟩ => ⟨S65536x64, .f32⟩
  | .hbm, ⟨32, _⟩ => ⟨S_, .f32⟩
  | .hbm, ⟨33, _⟩ => ⟨S65536x64, .f32⟩
  | .hbm, ⟨34, _⟩ => ⟨S65536x64, .f32⟩
  | .hbm, ⟨35, _⟩ => ⟨S_, .f32⟩
  | .hbm, ⟨36, _⟩ => ⟨S65536x64, .f32⟩
  | .hbm, ⟨37, _⟩ => ⟨S65536x64, .i1⟩
  | .hbm, ⟨38, _⟩ => ⟨S65536x64, .f32⟩
  | .hbm, ⟨39, _⟩ => ⟨S65536x64, .f32⟩
  | .hbm, ⟨40, _⟩ => ⟨S65536x64, .f32⟩
  | .hbm, ⟨41, _⟩ => ⟨S_, .f32⟩
  | .hbm, ⟨42, _⟩ => ⟨S65536, .f32⟩
  | .hbm, ⟨43, _⟩ => ⟨S65536x1, .f32⟩
  | .hbm, ⟨44, _⟩ => ⟨S_, .f32⟩
  | .hbm, ⟨45, _⟩ => ⟨S1, .f32⟩
  | .hbm, ⟨46, _⟩ => ⟨S1x1, .f32⟩
  | .hbm, ⟨47, _⟩ => ⟨S65536x1, .f32⟩
  | .hbm, ⟨48, _⟩ => ⟨S65536x1, .f32⟩
  | .hbm, ⟨49, _⟩ => ⟨S64x1, .f32⟩
  | .hbm, ⟨50, _⟩ => ⟨S65536x1, .f32⟩
  | .hbm, ⟨51, _⟩ => ⟨S_, .f32⟩
  | .hbm, ⟨52, _⟩ => ⟨S65536x1, .f32⟩
  | .hbm, ⟨53, _⟩ => ⟨S65536x1, .f32⟩
  | .hbm, ⟨54, _⟩ => ⟨S65536x1, .f32⟩
  | .hbm, ⟨55, _⟩ => ⟨S_, .f32⟩
  | .hbm, ⟨56, _⟩ => ⟨S65536x1, .f32⟩
  | .hbm, ⟨57, _⟩ => ⟨S65536x1, .f32⟩
  | .hbm, ⟨58, _⟩ => ⟨S_, .f32⟩
  | .hbm, ⟨59, _⟩ => ⟨S65536x1, .f32⟩
  | .hbm, ⟨60, _⟩ => ⟨S65536x1, .f32⟩
  | .hbm, ⟨61, _⟩ => ⟨S_, .f32⟩
  | .hbm, ⟨62, _⟩ => ⟨S65536x1, .f32⟩
  | .hbm, ⟨63, _⟩ => ⟨S65536x1, .f32⟩
  | .hbm, ⟨64, _⟩ => ⟨S65536x1, .f32⟩
  | .hbm, ⟨65, _⟩ => ⟨S65536x1, .f32⟩
  | .hbm, ⟨66, _⟩ => ⟨S_, .f32⟩
  | .hbm, ⟨67, _⟩ => ⟨S65536x1, .f32⟩
  | .hbm, ⟨68, _⟩ => ⟨S65536x1, .f32⟩
  | .hbm, ⟨69, _⟩ => ⟨S_, .f32⟩
  | .hbm, ⟨70, _⟩ => ⟨S65536x1, .f32⟩
  | .hbm, ⟨71, _⟩ => ⟨S65536x1, .f32⟩
  | .hbm, ⟨72, _⟩ => ⟨S_, .f32⟩
  | .hbm, ⟨73, _⟩ => ⟨S65536x1, .f32⟩
  | .hbm, ⟨74, _⟩ => ⟨S65536x1, .i1⟩
  | .hbm, ⟨75, _⟩ => ⟨S65536x1, .f32⟩
  | .hbm, ⟨76, _⟩ => ⟨S65536x1, .f32⟩
  | .hbm, ⟨77, _⟩ => ⟨S65536x1, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_cst_9 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_10 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_v41 : Ref sig .tc := ⟨.hbm, 57, rfl⟩
abbrev main_cst_12 : Ref sig .tc := ⟨.hbm, 58, rfl⟩
abbrev main_v42 : Ref sig .tc := ⟨.hbm, 59, rfl⟩
abbrev main_v43 : Ref sig .tc := ⟨.hbm, 60, rfl⟩
abbrev main_cst_13 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_14 : Ref sig .tc := ⟨.hbm, 66, rfl⟩
abbrev main_v48 : Ref sig .tc := ⟨.hbm, 67, rfl⟩
abbrev main_v49 : Ref sig .tc := ⟨.hbm, 68, rfl⟩
abbrev main_cst_15 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]

class Facts₀ : Prop where
  reducesTo_S65536x784_S65536_d1 : S65536x784.ReducesTo [1] S65536
  h_S_ : 0 < S_.numel
  bcast_S65536_S65536x1_0 : S65536.BroadcastsInDim S65536x1 (![0] : Fin 1 → Fin S65536x1.rank)
  reducesTo_S64x784_S64_d1 : S64x784.ReducesTo [1] S64
  bcast_S64_S1x64_1 : S64.BroadcastsInDim S1x64 (![1] : Fin 1 → Fin S1x64.rank)
  bcast_S65536x1_S65536x64_0_1 : S65536x1.BroadcastsInDim S65536x64 (![0, 1] : Fin 2 → Fin S65536x64.rank)
  bcast_S1x64_S65536x64_0_1 : S1x64.BroadcastsInDim S65536x64 (![0, 1] : Fin 2 → Fin S65536x64.rank)
  transposes_S64x784_S784x64_1_0 : S64x784.Transposes [1, 0] S784x64
  bcast_S_S65536x64 : S_.BroadcastsInDim S65536x64 (![] : Fin 0 → Fin S65536x64.rank)
  reducesTo_S65536x64_S65536_d1 : S65536x64.ReducesTo [1] S65536
  reducesTo_S1x64_S1_d1 : S1x64.ReducesTo [1] S1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  transposes_S1x64_S64x1_1_0 : S1x64.Transposes [1, 0] S64x1
  bcast_S_S65536x1 : S_.BroadcastsInDim S65536x1 (![] : Fin 0 → Fin S65536x1.rank)
  dot_S65536x784_S784x64_S65536x64_1_0_0_1_n_n_wf : DotDims.WF S65536x784 S784x64 S65536x64 [1] [0] [0] [1] [] []
  dot_S65536x64_S64x1_S65536x1_1_0_0_1_n_n_wf : DotDims.WF S65536x64 S64x1 S65536x1 [1] [0] [0] [1] [] []

variable [Facts₀]

def dot_S65536x784_S784x64_S65536x64_1_0_0_1_n_n : DotDims S65536x784 S784x64 S65536x64 where
  lhsContracting := [1]
  rhsContracting := [0]
  lhsNonContracting := [0]
  rhsNonContracting := [1]
  lhsBatch := []
  rhsBatch := []
  wf := dot_S65536x784_S784x64_S65536x64_1_0_0_1_n_n_wf
def dot_S65536x64_S64x1_S65536x1_1_0_0_1_n_n : DotDims S65536x64 S64x1 S65536x1 where
  lhsContracting := [1]
  rhsContracting := [0]
  lhsNonContracting := [0]
  rhsNonContracting := [1]
  lhsBatch := []
  rhsBatch := []
  wf := dot_S65536x64_S64x1_S65536x1_1_0_0_1_n_n_wf

class Facts : Prop extends Facts₀ where

variable [Facts]
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.Body.lean ====
/- What one grid point's body leaves in its output block, read at a row, at the ideal values.

   The body sees a block of 1024 input rows `x0`, the weight matrix `x1` of 65 columns (64 columns that hold
   `-2` times the transposed first-layer weights, and a last column of ones), the row `x2` of the first-layer
   weight rows' sums, the second-layer weight row `x3` and its sum `x4`.  One product of the block with
   `x1` gives, in column 64, each input row's sum and, in column `j`, `-2` times its dot product with
   weight row `j`; adding the three gives the first layer's soft exclusive-or count, the majority
   threshold over 784 gives the hidden row, two lane sums give the second layer's count, and the
   majority threshold over 64 the output.  Each step below reads one operation at an index. -/
import proofs.«112180_j8486855377349_2_alg».proof.Proof.Gen.KernelIdeal.Frame
import proofs.«112180_j8486855377349_2_alg».proof.Proof.LibColumns
import proofs.«112180_j8486855377349_2_alg».proof.Proof.LibPlainDot
import proofs.«112180_j8486855377349_2_alg».proof.Proof.LibRowReduce
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The kernel's named reciprocal of the first fan-in. -/
abbrev inv784 : EReal := Named.named (F := Ideal) κ "inv_784" (φ := .f32) 0x3AA72F05#32

/-- The majority threshold as the kernel spells it: the count times a reciprocal, one `logistic`, and the
    comparison's bit widened to 32 bits and read as a signed integer. -/
def kmaj (inv level h : EReal) : EReal :=
  Ideal.logistic (Ideal.ofBits .f32 0x41200000#32 * (h * inv - Ideal.ofBits .f32 0x3F000000#32))
    + (((((Ideal.cmp .ogt h level).setWidth 32).toInt : ℝ) : EReal)
        - Ideal.logistic (Ideal.ofBits .f32 0x41200000#32 * (h * inv - Ideal.ofBits .f32 0x3F000000#32)))

/-- The block's product with the 65-column weight matrix. -/
def prod (x0 : FVec Ideal S1024x784 .f32) (x1 : FVec Ideal S784x65 .f32) : FVec Ideal S1024x65 .f32 :=
  matmul (φ₁ := .f32) (φ₂ := .f32) dot_S1024x784_S784x65_S1024x65_1_0_0_1_n_n (some .fp32) x0 (shapeCast S784x65 x1 Facts₀.shapeCasts_S784x65_S784x65)
    (constant S1024x65 .f32 0x00000000#32)

/-- The first layer's count: column 64 of the product spread over the row, plus the weight rows' sums, plus columns 0..63. -/
def count1 (x0 : FVec Ideal S1024x784 .f32) (x1 : FVec Ideal S784x65 .f32) (x2 : FVec Ideal S1x64 .f32) : FVec Ideal S1024x64 .f32 :=
  addf (addf (broadcastTo S1024x64 (extractStridedSlice S1024x1 ![0, 64] (prod x0 x1) Facts₀.slices_S1024x65_o0_64_S1024x1) Facts₀.broadcasts_S1024x1_S1024x64)
      (broadcastTo S1024x64 (shapeCast S1x64 x2 Facts₀.shapeCasts_S1x64_S1x64) Facts₀.broadcasts_S1x64_S1024x64))
    (extractStridedSlice S1024x64 ![0, 0] (prod x0 x1) Facts₀.slices_S1024x65_o0_0_S1024x64)

/-- The hidden block: the majority threshold over 784, entry by entry. -/
def hid (v : FVec Ideal S1024x64 .f32) : FVec Ideal S1024x64 .f32 :=
  fun i => kmaj inv784 (Ideal.ofBits .f32 0x43C40000#32) (v i)

/-- The second layer's count from the hidden block: its row sums plus the weight row's sum, minus twice its
    row-wise product sums with the weight row. -/
def count2 (h : FVec Ideal S1024x64 .f32) (x3 : FVec Ideal S1x64 .f32) (x4 : FVec Ideal S1x1 .f32) : FVec Ideal S1024x1 .f32 :=
  subf (addf (shapeCast S1024x1 (multiReduction .add [1] S1024 h 0x00000000#32 Facts₀.reduces_S1024x64_S1024 (.inl rfl) rfl) Facts₀.shapeCasts_S1024_S1024x1)
      (broadcastTo S1024x1 (shapeCast S1x1 x4 Facts₀.shapeCasts_S1x1_S1x1) Facts₀.broadcasts_S1x1_S1024x1))
    (mulf (broadcast S1024x1 (Scalar.ofBits (F := Ideal) .f32 0x40000000#32))
      (shapeCast S1024x1 (multiReduction .add [1] S1024 (mulf h (broadcastTo S1024x64 x3 Facts₀.broadcasts_S1x64_S1024x64)) 0x00000000#32 Facts₀.reduces_S1024x64_S1024 (.inl rfl) rfl) Facts₀.shapeCasts_S1024_S1024x1))

/-- The body's second payload is these three stages composed. -/
theorem pay2_eq (x0 : Vec Ideal S1024x784 .f32) (x1 : Vec Ideal S784x65 .f32) (x2 x3 : Vec Ideal S1x64 .f32) (x4 : Vec Ideal S1x1 .f32) :
    k0_pay2 (F := Ideal) x0 x1 x2 x3 x4 = count2 (hid (count1 x0 x1 x2)) x3 x4 := rfl

/-- The stored payload is the majority threshold over 64 of the second count, entry by entry. -/
theorem pay1_eq (v : FVec Ideal S1024x1 .f32) :
    k0_pay1 (F := Ideal) v (k0_pay3 (F := Ideal))
      = fun i => kmaj (Ideal.ofBits .f32 0x3C800000#32) (Ideal.ofBits .f32 0x42000000#32) (v i) := rfl

/-! ## Each stage read at an index -/

/-- The product at row `p`, column `q`: the row's entries times the column's, summed. -/
theorem prod_apply (x0 : FVec Ideal S1024x784 .f32) (x1 : FVec Ideal S784x65 .f32) (p : Fin 1024) (q : Fin 65) :
    prod x0 x1 (ix2 p q) = ∑ k : Fin 784, x0 (ix2 p k) * x1 (ix2 k q) := by
  unfold prod
  rw [shapeCast_self]
  exact PlainDot.matmul_zero_apply _ rfl (some .fp32) x0 x1 p q

/-- The first count at row `p`, hidden unit `j`. -/
theorem count1_apply (x0 : FVec Ideal S1024x784 .f32) (x1 : FVec Ideal S784x65 .f32) (x2 : FVec Ideal S1x64 .f32)
    (p : Fin 1024) (j : Fin 64) :
    count1 x0 x1 x2 (ix2 p j)
      = (∑ k : Fin 784, x0 (ix2 p k) * x1 (ix2 k (64 : Fin 65)) + x2 (ix2 (0 : Fin 1) j))
        + ∑ k : Fin 784, x0 (ix2 p k) * x1 (ix2 k (⟨j.val, Nat.lt_trans j.isLt (by decide)⟩ : Fin 65)) := by
  unfold count1
  show (broadcastTo S1024x64 _ _ (ix2 p j) + broadcastTo S1024x64 _ _ (ix2 p j)) + extractStridedSlice S1024x64 _ _ _ (ix2 p j) = _
  refine congrArg₂ (· + ·) (congrArg₂ (· + ·) ?_ ?_) ?_
  · exact (broadcastTo_a1_ab_apply _ _ p j).trans
      ((extractStridedSlice_column_apply ![0, 64] (64 : Fin 65) rfl rfl _ _ p 0).trans (prod_apply x0 x1 p 64))
  · refine (broadcastTo_1b_ab_apply _ _ p j).trans ?_
    rw [shapeCast_self]
  · refine (extractStridedSlice_apply _ _ _ (ix2 p j) (ix2 p (⟨j.val, Nat.lt_trans j.isLt (by decide)⟩ : Fin 65)) fun ax => ?_).trans
      (prod_apply x0 x1 p _)
    match ax with
    | ⟨0, _⟩ => show p.val = 0 + p.val; omega
    | ⟨1, _⟩ => show j.val = 0 + j.val; omega

/-- A lane sum over the 64 hidden units, at row `p`. -/
theorem rowsum_apply (v : FVec Ideal S1024x64 .f32) (p : Fin 1024) :
    multiReduction .add [1] S1024 v 0x00000000#32 Facts₀.reduces_S1024x64_S1024 (.inl rfl) rfl (ix1 p)
      = ∑ j : Fin 64, v (ix2 p j) :=
  RowReduce.multiReduction_add_row v 0x00000000#32 Facts₀.reduces_S1024x64_S1024 (.inl rfl) rfl p

/-- The second count at row `p`. -/
theorem count2_apply (h : FVec Ideal S1024x64 .f32) (x3 : FVec Ideal S1x64 .f32) (x4 : FVec Ideal S1x1 .f32)
    (p : Fin 1024) (z : Fin 1) :
    count2 h x3 x4 (ix2 p z)
      = (∑ j : Fin 64, h (ix2 p j) + x4 (ix2 (0 : Fin 1) z))
        - Ideal.ofBits .f32 0x40000000#32 * ∑ j : Fin 64, h (ix2 p j) * x3 (ix2 (0 : Fin 1) j) := by
  unfold count2
  show (shapeCast S1024x1 _ _ (ix2 p z) + broadcastTo S1024x1 _ _ (ix2 p z))
      - Ideal.ofBits .f32 0x40000000#32 * shapeCast S1024x1 _ _ (ix2 p z) = _
  refine congrArg₂ (· - ·) (congrArg₂ (· + ·) ?_ ?_) (congrArg (Ideal.ofBits .f32 0x40000000#32 * ·) ?_)
  · exact (RowReduce.shapeCast_a_a1_apply _ _ p z).trans (rowsum_apply h p)
  · refine (broadcastTo_1b_ab_apply _ _ p z).trans ?_
    rw [shapeCast_self]
  · refine (RowReduce.shapeCast_a_a1_apply _ _ p z).trans ((rowsum_apply _ p).trans ?_)
    exact Finset.sum_congr rfl fun j _ => congrArg (h (ix2 p j) * ·) (broadcastTo_1b_ab_apply x3 _ p j)

/-! ## The output block at a row -/

/-- The accesses' offsets are all zero: every load and the one store go through whole buffers. -/
theorem offsets_zero : (![0, 0] : Fin 2 → Nat) = fun _ => 0 := funext fun a => by fin_cases a <;> rfl

/-- Hidden unit `j` of row `p` as the body computes it from the blocks' entries. -/
def hidAt (x0 : FVec Ideal S1024x784 .f32) (x1 : FVec Ideal S784x65 .f32) (x2 : FVec Ideal S1x64 .f32)
    (p : Fin 1024) (j : Fin 64) : EReal :=
  kmaj inv784 (Ideal.ofBits .f32 0x43C40000#32)
    ((∑ k : Fin 784, x0 (ix2 p k) * x1 (ix2 k (64 : Fin 65)) + x2 (ix2 (0 : Fin 1) j))
      + ∑ k : Fin 784, x0 (ix2 p k) * x1 (ix2 k (⟨j.val, Nat.lt_trans j.isLt (by decide)⟩ : Fin 65)))

/-- What the body stores at row `p` of its output block, from the five input blocks' entries. -/
theorem out_apply (x0 : Vec Ideal S1024x784 .f32) (x1 : Vec Ideal S784x65 .f32) (x2 x3 : Vec Ideal S1x64 .f32)
    (x4 : Vec Ideal S1x1 .f32) (p : Fin 1024) (z : Fin 1) :
    out0_5 (F := Ideal) x0 x1 x2 x3 x4 (ix2 p z)
      = kmaj (Ideal.ofBits .f32 0x3C800000#32) (Ideal.ofBits .f32 0x42000000#32)
          ((∑ j : Fin 64, hidAt x0 x1 x2 p j + x4 (ix2 (0 : Fin 1) z))
            - Ideal.ofBits .f32 0x40000000#32 * ∑ j : Fin 64, hidAt x0 x1 x2 p j * x3 (ix2 (0 : Fin 1) j)) := by
  unfold out0_5
  rw [View.canon_unit_zero offsets_zero]
  simp only [View.ld_unit_zero (S := S1024x784) offsets_zero, View.ld_unit_zero (S := S784x65) offsets_zero,
    View.ld_unit_zero (S := S1x64) offsets_zero, View.ld_unit_zero (S := S1x1) offsets_zero]
  rw [pay2_eq, pay1_eq]
  show kmaj _ _ (count2 (hid (count1 x0 x1 x2)) x3 x4 (ix2 p z)) = _
  rw [count2_apply]
  have hh : ∀ j : Fin 64, hid (count1 x0 x1 x2) (ix2 p j) = hidAt x0 x1 x2 p j := fun j => by
    show kmaj _ _ (count1 x0 x1 x2 (ix2 p j)) = _
    rw [count1_apply]
    rfl
  simp only [hh]

end Cert.KernelIdeal.Body

end
-- ==== Proof.Spec.lean ====
/- The function both programs compute, index by index over the extended reals, written in the reference's
   arrangement.

   A "soft exclusive-or" layer sends a row `a` and a weight row `b` of the same length to
   `Σ a + Σ b − 2 · Σ a·b` (on 0/1 entries this counts the positions where they differ), and a majority
   threshold over a fan-in of `n` sends that count `h` to `s + (hard − s)`, where `s` is the sigmoid of
   `10 · (h / n − 1/2)` spelled `1 / (1 + e^(−z))` and `hard` is `1` when `h > n/2` and `0` otherwise.
   The network is two such layers: 784 inputs to 64 hidden units, and the 64 hidden units to one output.
   Each host sum starts from the zero word, which is kept here as the programs print it. -/
import Idealize.ShloMosaic.PureOps.Ideal
import Idealize.ShloMosaic.Lib.ValueIdx

noncomputable section

namespace Cert.SoftXor

open Idealize.ShloMosaic Idealize.ShloMosaic.ValueIdx

/-- A host sum over one axis: the zero word plus the entries. -/
def zsum {n : ℕ} (a : Fin n → EReal) : EReal := Ideal.ofBits .f32 0x00000000#32 + ∑ k : Fin n, a k

/-- The soft exclusive-or count from its three sums: `Σ a + Σ b − 2 · Σ a·b`. -/
def xorCount (sa sb d : EReal) : EReal := sa + sb - Ideal.ofBits .f32 0x40000000#32 * d

/-- The sigmoid spelled out: `1 / (1 + e^(−z))`. -/
def sigm (z : EReal) : EReal :=
  Ideal.div (Ideal.ofBits .f32 0x3F800000#32) (Ideal.ofBits .f32 0x3F800000#32 + Ideal.exp (-z))

/-- The hard bit: `1` when `h` exceeds the level, else `0`. -/
def hardBit (h level : EReal) : EReal := (((Ideal.cmp .ogt h level).toNat : ℝ) : EReal)

/-- The majority threshold over a fan-in `n` with level `n/2`: the sigmoid surrogate plus (hard − soft). -/
def majority (n level h : EReal) : EReal :=
  sigm (Ideal.ofBits .f32 0x41200000#32 * (Ideal.div h n - Ideal.ofBits .f32 0x3F000000#32))
    + (hardBit h level - sigm (Ideal.ofBits .f32 0x41200000#32 * (Ideal.div h n - Ideal.ofBits .f32 0x3F000000#32)))

/-- Hidden unit `j` of batch row `b`: the majority over 784 of the soft exclusive-or of the input row with weight row `j`. -/
def hidden (x : (⟨2, ![65536, 784]⟩ : Shape).Idx → EReal) (w1 : (⟨2, ![64, 784]⟩ : Shape).Idx → EReal)
    (b : Fin 65536) (j : Fin 64) : EReal :=
  majority (Ideal.ofBits .f32 0x44440000#32) (Ideal.ofBits .f32 0x43C40000#32)
    (xorCount (zsum fun k : Fin 784 => x (ix2 b k)) (zsum fun k : Fin 784 => w1 (ix2 j k))
      (∑ k : Fin 784, x (ix2 b k) * w1 (ix2 j k)))

/-- The output of batch row `b`: the majority over 64 of the soft exclusive-or of the hidden row with the one output weight row. -/
def outRow (x : (⟨2, ![65536, 784]⟩ : Shape).Idx → EReal) (w1 : (⟨2, ![64, 784]⟩ : Shape).Idx → EReal)
    (w2 : (⟨2, ![1, 64]⟩ : Shape).Idx → EReal) (b : Fin 65536) : EReal :=
  majority (Ideal.ofBits .f32 0x42800000#32) (Ideal.ofBits .f32 0x42000000#32)
    (xorCount (zsum fun j : Fin 64 => hidden x w1 b j) (zsum fun j : Fin 64 => w2 (ix2 (0 : Fin 1) j))
      (∑ j : Fin 64, hidden x w1 b j * w2 (ix2 (0 : Fin 1) j)))

/-- The whole result array, `[65536, 1]`. -/
def net (x : (⟨2, ![65536, 784]⟩ : Shape).Idx → EReal) (w1 : (⟨2, ![64, 784]⟩ : Shape).Idx → EReal)
    (w2 : (⟨2, ![1, 64]⟩ : Shape).Idx → EReal) : (⟨2, ![65536, 1]⟩ : Shape).Idx → EReal :=
  fun i => outRow x w1 w2 (i 0)

end Cert.SoftXor

end
-- ==== Proof.Consts.lean ====
/- The float constants the two programs spell, as the extended reals their bit patterns denote: the
   divisors 784 and 64 of the two thresholds' fan-ins, the exact reciprocal 1/64, the factor 2 of the
   reference's product term, the factor -2 folded into the kernel's weight matrix, and 1 (the column of
   ones appended to that matrix, and the numerator and summand of the reference's spelled-out sigmoid). -/
import Idealize.ShloMosaic.PureOps.Ideal

noncomputable section

namespace Cert.Consts

open Idealize.ShloMosaic

/-- `1.0` denotes `1`. -/
theorem ofBits_one : Ideal.ofBits .f32 0x3F800000#32 = 1 := by
  simp [Ideal.ofBits, Ideal.ieee, -EReal.coe_mul]; norm_num

/-- `2.0` denotes the real `2`. -/
theorem ofBits_two : Ideal.ofBits .f32 0x40000000#32 = ((2 : ℝ) : EReal) := by
  simp [Ideal.ofBits, Ideal.ieee, -EReal.coe_mul]; norm_num

/-- `-2.0` denotes the real `-2`. -/
theorem ofBits_neg_two : Ideal.ofBits .f32 0xC0000000#32 = ((-2 : ℝ) : EReal) := by
  simp [Ideal.ofBits, Ideal.ieee, -EReal.coe_mul]; norm_num

/-- `784.0` denotes the real `784`. -/
theorem ofBits_784 : Ideal.ofBits .f32 0x44440000#32 = ((784 : ℝ) : EReal) := by
  simp [Ideal.ofBits, Ideal.ieee, -EReal.coe_mul]; norm_num

/-- `64.0` denotes the real `64`. -/
theorem ofBits_64 : Ideal.ofBits .f32 0x42800000#32 = ((64 : ℝ) : EReal) := by
  simp [Ideal.ofBits, Ideal.ieee, -EReal.coe_mul]; norm_num

/-- `0.015625` denotes the real `1/64`, exactly (a power of two). -/
theorem ofBits_inv_64 : Ideal.ofBits .f32 0x3C800000#32 = ((1 / 64 : ℝ) : EReal) := by
  simp [Ideal.ofBits, Ideal.ieee, -EReal.coe_mul]; norm_num

end Cert.Consts

end
-- ==== Proof.Laws.lean ====
/- The algebra that joins the kernel's arrangement of the soft exclusive-or network to the
   specification's, over the extended reals.

   Three facts. (1) One comparison bit, widened with zeros to 32 bits and read as a signed integer, is
   the same number as the bit read unsigned. (2) Dividing by a nonzero real is multiplying by its
   reciprocal on every extended real, and the one-word logistic is the spelled-out `1 / (1 + e^(-z))`;
   together these turn the kernel's majority threshold into the specification's. (3) For rows of real
   numbers, `Σ a·1 + Σ b + Σ a·(-2·b) = Σ a + Σ b - 2·Σ a·b`. -/
import Idealize.ShloMosaic.PureOps.Ideal
import Idealize.ShloMosaic.PureOps.Ideal.Laws
import proofs.«112180_j8486855377349_2_alg».proof.Proof.Spec
import proofs.«112180_j8486855377349_2_alg».proof.Proof.Consts

noncomputable section

namespace Cert.SoftXor

open Idealize.ShloMosaic

/-- One bit widened with zeros to 32 bits and read signed is the bit read unsigned: the widened word is
    `0` or `1`, far below the sign bit. -/
theorem hardBit_signed (b : BitVec 1) :
    ((((b.setWidth 32).toInt : ℤ) : ℝ) : EReal) = (((b.toNat : ℕ) : ℝ) : EReal) := by
  have h : ∀ c : BitVec 1, (c.setWidth 32).toInt = (c.toNat : ℤ) := by decide
  rw [h b]
  simp

/-- The spelled-out sigmoid `1 / (1 + e^(-z))` is the logistic function, once the word `1.0` is read as `1`. -/
theorem sigm_eq_logistic (z : EReal) : sigm z = Ideal.logistic z := by
  unfold sigm Ideal.logistic
  rw [Cert.Consts.ofBits_one]

/-- The kernel's majority threshold (multiply by the reciprocal of the fan-in, one logistic, the
    comparison bit widened and read signed) is the specification's (divide by the fan-in, the
    spelled-out sigmoid, the bit read unsigned), for every extended real count `h`. -/
theorem majority_kernel (h : EReal) (n : ℝ) (hn : n ≠ 0) (nw : BitVec 32)
    (hnw : Ideal.ofBits .f32 nw = (n : EReal)) (inv : EReal) (hinv : inv = ((1 / n : ℝ) : EReal))
    (level : EReal) :
    Ideal.logistic (Ideal.ofBits .f32 0x41200000#32 * (h * inv - Ideal.ofBits .f32 0x3F000000#32))
      + (((((Ideal.cmp .ogt h level).setWidth 32).toInt : ℝ) : EReal)
          - Ideal.logistic (Ideal.ofBits .f32 0x41200000#32 * (h * inv - Ideal.ofBits .f32 0x3F000000#32)))
      = majority (Ideal.ofBits .f32 nw) level h := by
  subst hinv
  unfold majority hardBit
  rw [sigm_eq_logistic, hnw, Ideal.div_coe hn, hardBit_signed]

/-- The first layer's instance: fan-in 784, the reciprocal given as the real `1/784`. -/
theorem majority_kernel_784 (h level : EReal) :
    Ideal.logistic (Ideal.ofBits .f32 0x41200000#32
        * (h * ((1 / 784 : ℝ) : EReal) - Ideal.ofBits .f32 0x3F000000#32))
      + (((((Ideal.cmp .ogt h level).setWidth 32).toInt : ℝ) : EReal)
          - Ideal.logistic (Ideal.ofBits .f32 0x41200000#32
              * (h * ((1 / 784 : ℝ) : EReal) - Ideal.ofBits .f32 0x3F000000#32)))
      = majority (Ideal.ofBits .f32 0x44440000#32) level h :=
  majority_kernel h 784 (by norm_num) 0x44440000#32 Cert.Consts.ofBits_784 _ rfl level

/-- The second layer's instance: fan-in 64, the reciprocal given as the word `0.015625`, exactly `1/64`. -/
theorem majority_kernel_64 (h level : EReal) :
    Ideal.logistic (Ideal.ofBits .f32 0x41200000#32
        * (h * Ideal.ofBits .f32 0x3C800000#32 - Ideal.ofBits .f32 0x3F000000#32))
      + (((((Ideal.cmp .ogt h level).setWidth 32).toInt : ℝ) : EReal)
          - Ideal.logistic (Ideal.ofBits .f32 0x41200000#32
              * (h * Ideal.ofBits .f32 0x3C800000#32 - Ideal.ofBits .f32 0x3F000000#32)))
      = majority (Ideal.ofBits .f32 0x42800000#32) level h :=
  majority_kernel h 64 (by norm_num) 0x42800000#32 Cert.Consts.ofBits_64 _ Cert.Consts.ofBits_inv_64 level

/-- The inclusion of the reals in the extended reals carries finite sums to finite sums. -/
theorem coe_sum {n : ℕ} (f : Fin n → ℝ) :
    ∑ k : Fin n, ((f k : ℝ) : EReal) = ((∑ k : Fin n, f k : ℝ) : EReal) := by
  induction (Finset.univ : Finset (Fin n)) using Finset.induction_on with
  | empty => simp
  | insert c s hc ih => rw [Finset.sum_insert hc, Finset.sum_insert hc, ih, EReal.coe_add]

/-- Folding the factor `-2` into the second row and getting `Σ a` as a product with a column of ones
    gives the soft exclusive-or count: `(Σ a·1 + Σ b) + Σ a·(-2·b) = Σ a + Σ b - 2·Σ a·b`. The rows must
    be real: the extended reals do not distribute over sums at the infinities. -/
theorem folded_count {n : ℕ} (a b : Fin n → EReal) (ha : ∀ k, ∃ r : ℝ, a k = r)
    (hb : ∀ k, ∃ r : ℝ, b k = r) :
    (∑ k : Fin n, a k * Ideal.ofBits .f32 0x3F800000#32 + zsum b)
        + ∑ k : Fin n, a k * (Ideal.ofBits .f32 0xC0000000#32 * b k)
      = xorCount (zsum a) (zsum b) (∑ k : Fin n, a k * b k) := by
  choose ra hra using ha
  choose rb hrb using hb
  have ea : a = fun k => ((ra k : ℝ) : EReal) := funext hra
  have eb : b = fun k => ((rb k : ℝ) : EReal) := funext hrb
  subst ea
  subst eb
  unfold xorCount zsum
  rw [Cert.Consts.ofBits_one, Cert.Consts.ofBits_neg_two, Cert.Consts.ofBits_two, Ideal.ofBits_zero_f32]
  simp only [mul_one, zero_add, ← EReal.coe_mul, coe_sum, ← EReal.coe_add, ← EReal.coe_sub]
  rw [EReal.coe_eq_coe_iff]
  rw [Finset.mul_sum, sub_eq_add_neg, ← Finset.sum_neg_distrib]
  congr 1
  apply Finset.sum_congr rfl
  intro k _
  ring

end Cert.SoftXor

end
-- ==== Proof.Join.lean ====
/- One row of the kernel's output block is the specification's row.

   At a grid point the body's five blocks hold: rows of the input `X`; the 65-column matrix whose column
   `j < 64` is `-2` times weight row `j` of `W1` and whose last column is ones; the sums of `W1`'s rows; the
   row `W2`; and the sum of `W2`.  With these, the row's first count is
   `(Σ x·1 + Σ w) + Σ x·(-2·w)`, which for REAL entries is the soft exclusive-or count
   `Σ x + Σ w − 2·Σ x·w` (distributivity of the extended reals needs finite entries: this is where the
   precondition is used), the kernel's threshold (times 1/784, one logistic, a signed bit) is the
   specification's (divided by 784, the spelled-out sigmoid, an unsigned bit), and the second layer
   differs only by a zero summand and the same two spellings of the threshold over 64. -/
import proofs.«112180_j8486855377349_2_alg».proof.Proof.Body
import proofs.«112180_j8486855377349_2_alg».proof.Proof.Laws
import Idealize.ShloMosaic.PureOps.IdealRules

noncomputable section

namespace Cert.KernelIdeal.Join

open Cert.KernelIdeal Cert.KernelIdeal.Gen Cert.KernelIdeal.Body Cert.SoftXor Idealize.ShloMosaic Idealize.ShloMosaic.ValueIdx

/-- The kernel's named constant denotes the rational `1/784`. -/
theorem inv784_eq : inv784 = ((1 / 784 : ℝ) : EReal) :=
  IdealRules.named_const.ideal_named_scalar _ _ _ _ rfl

/-- A host sum of a row is the plain sum: the zero word adds nothing. -/
theorem zsum_eq_sum {n : ℕ} (a : Fin n → EReal) : zsum a = ∑ k : Fin n, a k := by
  unfold zsum
  rw [Ideal.ofBits_zero_f32, zero_add]

/-- Row `p` of the block the body stores is the specification's output of batch row `b`, given what the five
    blocks' entries are in terms of the arguments `X`, `W1`, `W2`, and that `X` and `W1` hold real numbers. -/
theorem row_eq (x0 : Vec Ideal S1024x784 .f32) (x1 : Vec Ideal S784x65 .f32) (x2 x3 : Vec Ideal S1x64 .f32)
    (x4 : Vec Ideal S1x1 .f32)
    (X : (⟨2, ![65536, 784]⟩ : Shape).Idx → EReal) (W1 : (⟨2, ![64, 784]⟩ : Shape).Idx → EReal)
    (W2 : (⟨2, ![1, 64]⟩ : Shape).Idx → EReal) (b : Fin 65536) (p : Fin 1024) (z : Fin 1)
    (h0 : ∀ k : Fin 784, x0 (ix2 p k) = X (ix2 b k))
    (h1l : ∀ (k : Fin 784) (j : Fin 64),
      x1 (ix2 k (⟨j.val, Nat.lt_trans j.isLt (by decide)⟩ : Fin 65)) = Ideal.ofBits .f32 0xC0000000#32 * W1 (ix2 j k))
    (h1r : ∀ k : Fin 784, x1 (ix2 k (64 : Fin 65)) = Ideal.ofBits .f32 0x3F800000#32)
    (h2 : ∀ j : Fin 64, x2 (ix2 (0 : Fin 1) j) = zsum fun k : Fin 784 => W1 (ix2 j k))
    (h3 : ∀ j : Fin 64, x3 (ix2 (0 : Fin 1) j) = W2 (ix2 (0 : Fin 1) j))
    (h4 : x4 (ix2 (0 : Fin 1) z) = zsum fun j : Fin 64 => W2 (ix2 (0 : Fin 1) j))
    (hX : ∀ i, ∃ r : ℝ, X i = r) (hW1 : ∀ i, ∃ r : ℝ, W1 i = r) :
    out0_5 (F := Ideal) x0 x1 x2 x3 x4 (ix2 p z) = outRow X W1 W2 b := by
  rw [out_apply]
  have hh : ∀ j : Fin 64, hidAt x0 x1 x2 p j = SoftXor.hidden X W1 b j := fun j => by
    unfold hidAt SoftXor.hidden
    simp only [h0, h1l, h1r, h2]
    rw [folded_count (fun k => X (ix2 b k)) (fun k => W1 (ix2 j k)) (fun k => hX _) (fun k => hW1 _), inv784_eq]
    exact majority_kernel_784 _ _
  simp only [hh, h3, h4]
  unfold outRow xorCount
  rw [zsum_eq_sum fun j : Fin 64 => SoftXor.hidden X W1 b j]
  exact majority_kernel_64 _ _

end Cert.KernelIdeal.Join

end
-- ==== Proof.Glue.lean ====
/- What the kernel's region finds in the three arrays the host operations write before it, read at an index,
   over the extended reals.

   The host builds an augmented weight matrix `[784, 65]`: the transposed second input times `-2` in the first 64
   columns, a column of ones last; the row sums of the second input as a `[1, 64]` array; and the sum of the third
   input's one row as a `[1, 1]` array. Each is first identified with the term of the operations that write it,
   then read entry by entry. Every float word is kept as written. -/
import proofs.«112180_j8486855377349_2_alg».proof.Proof.Gen.KernelIdeal.Frame
import proofs.«112180_j8486855377349_2_alg».proof.Proof.Spec
import proofs.«112180_j8486855377349_2_alg».proof.Proof.LibRowReduce
import Idealize.ShloMosaic.Lib.ValueLayout
import Idealize.ShloMosaic.Lib.Pipeline.Value
import Idealize.ShloMosaic.Lib.StableHlo.Run

noncomputable section

namespace Cert.KernelIdeal.Glue

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ)

/-- The second input as launched, read as a `[64, 784]` array of extended reals. -/
abbrev W1 (c : Dev nD) : S64x784.Idx → EReal := m ((c : Thread nD τ).loc main_arg1)

/-- The third input as launched, read as a `[1, 64]` array of extended reals. -/
abbrev W2 (c : Dev nD) : S1x64.Idx → EReal := m ((c : Thread nD τ).loc main_arg2)

/-- The augmented weight matrix as the host operations build it: the transposed second input scaled by the
    word `-2.0`, with a column of the word `1.0` appended on the right. -/
theorem aug_term (c : Dev nD) :
    (V m c main_v4 : S784x65.Idx → EReal)
      = concatenate S784x65 1
          [⟨S784x64, mulf (broadcastInDim S784x64 ![] bcast_S_S784x64 (constant (F := Ideal) S_ .f32 0xC0000000#32))
              (transpose S784x64 [1, 0] (W1 m c) transposes_S64x784_S784x64_1_0)⟩,
            ⟨S784x1, broadcastInDim S784x1 ![] bcast_S_S784x1 (constant (F := Ideal) S_ .f32 0x3F800000#32)⟩]
          concatenates_S784x64_S784x1_S784x65_d1 := by
  dsimp only [Gen.V, Gen.hostOps0]
  after_results

/-- The row sums of the second input as the host operations build them: the sum over the second axis from the
    zero word, recast from `[64]` to `[1, 64]`. -/
theorem sums1_term (c : Dev nD) :
    (V m c main_v6 : S1x64.Idx → EReal)
      = shapeCast S1x64 (Host.reduceAdd (F := Ideal) (W1 m c) (constant (F := Ideal) S_ .f32 0x00000000#32)
          reducesTo_S64x784_S64_d1 h_S_) shapeCasts_S64_S1x64 := by
  dsimp only [Gen.V, Gen.hostOps0]
  after_results
  rfl

/-- The row sum of the third input as the host operations build it: the sum over the second axis from the zero
    word, recast from `[1]` to `[1, 1]`. -/
theorem sums2_term (c : Dev nD) :
    (V m c main_v8 : S1x1.Idx → EReal)
      = shapeCast S1x1 (Host.reduceAdd (F := Ideal) (W2 m c) (constant (F := Ideal) S_ .f32 0x00000000#32)
          reducesTo_S1x64_S1_d1 h_S_) shapeCasts_S1_S1x1 := by
  dsimp only [Gen.V, Gen.hostOps0]
  after_results
  rfl

/-- A column `q` of the augmented matrix that lies among the first 64 holds, in row `k`, the word `-2.0` times
    the second input at `(q, k)`: the concatenation reads its first piece there, the product is entrywise, the
    broadcast scalar is the word itself, and the transpose swaps the two coordinates. -/
theorem aug_left_of (c : Dev nD) (k : Fin 784) (q : Fin 65) (j : Fin 64) (hq : q.val = j.val) :
    (V m c main_v4 : S784x65.Idx → EReal) (ix2 k q)
      = Ideal.ofBits .f32 0xC0000000#32 * W1 m c (ix2 j k) := by
  rw [aug_term]
  rw [concatenate_pair_apply_left (t := S784x65) (s₁ := S784x64) (s₂ := S784x1) 1 _ _ concatenates_S784x64_S784x1_S784x65_d1 (ix2 k q) rfl (ix2 k j)
    (fun b => match b with | ⟨0, _⟩ => rfl | ⟨1, _⟩ => hq.symm)]
  show FloatOps.mulf (F := Ideal)
      (broadcastInDim S784x64 ![] bcast_S_S784x64 (constant (F := Ideal) S_ .f32 0xC0000000#32) (ix2 k j))
      (transpose S784x64 [1, 0] (W1 m c) transposes_S64x784_S784x64_1_0 (ix2 k j)) = _
  rw [broadcastInDim_scalar_apply, transpose_ix2_apply]
  rfl

/-- The same with the column written as the embedding of `j : Fin 64` into `Fin 65`. -/
theorem aug_left (c : Dev nD) (k : Fin 784) (j : Fin 64) :
    (V m c main_v4 : S784x65.Idx → EReal) (ix2 k (⟨j.val, by omega⟩ : Fin 65))
      = Ideal.ofBits .f32 0xC0000000#32 * W1 m c (ix2 j k) :=
  aug_left_of m c k _ j rfl

/-- The same with the column written `Fin.castSucc j`, as a sum over `Fin 65` split off its last term spells it. -/
theorem aug_left_castSucc (c : Dev nD) (k : Fin 784) (j : Fin 64) :
    (V m c main_v4 : S784x65.Idx → EReal) (ix2 k (Fin.castSucc j))
      = Ideal.ofBits .f32 0xC0000000#32 * W1 m c (ix2 j k) :=
  aug_left_of m c k _ j rfl

/-- The last column of the augmented matrix holds the word `1.0` in every row: the concatenation reads its
    second piece there, a broadcast scalar. -/
theorem aug_right_of (c : Dev nD) (k : Fin 784) (q : Fin 65) (hq : q.val = 64) :
    (V m c main_v4 : S784x65.Idx → EReal) (ix2 k q) = Ideal.ofBits .f32 0x3F800000#32 := by
  rw [aug_term]
  rw [concatenate_pair_apply_right (t := S784x65) (s₁ := S784x64) (s₂ := S784x1) 1 _ _ concatenates_S784x64_S784x1_S784x65_d1 (ix2 k q) rfl rfl
    (ix2 k (0 : Fin 1))
    (fun b => match b with | ⟨0, _⟩ => fun _ => rfl | ⟨1, _⟩ => fun h => absurd rfl h)
    (by show (0 : ℕ) + 64 = q.val; omega)]
  rw [broadcastInDim_scalar_apply]
  rfl

/-- The same with the column written as the numeral `64`. -/
theorem aug_right (c : Dev nD) (k : Fin 784) :
    (V m c main_v4 : S784x65.Idx → EReal) (ix2 k (64 : Fin 65)) = Ideal.ofBits .f32 0x3F800000#32 :=
  aug_right_of m c k _ rfl

/-- The same with the column written `Fin.last 64`. -/
theorem aug_right_last (c : Dev nD) (k : Fin 784) :
    (V m c main_v4 : S784x65.Idx → EReal) (ix2 k (Fin.last 64)) = Ideal.ofBits .f32 0x3F800000#32 :=
  aug_right_of m c k _ rfl

/-- Entry `(0, j)` of the recast row sums is the host sum of row `j` of the second input: the zero word plus
    the row's entries. -/
theorem sums1 (c : Dev nD) (j : Fin 64) :
    (V m c main_v6 : S1x64.Idx → EReal) (ix2 (0 : Fin 1) j)
      = Cert.SoftXor.zsum fun k : Fin 784 => W1 m c (ix2 j k) := by
  rw [sums1_term, shapeCast_a_1a_apply,
    RowReduce.hostReduceAdd_row (W1 m c) _ reducesTo_S64x784_S64_d1 (by decide) h_S_ j]
  rfl

/-- The one entry of the recast sum is the host sum of the third input's one row. -/
theorem sums2 (c : Dev nD) :
    (V m c main_v8 : S1x1.Idx → EReal) (ix2 (0 : Fin 1) (0 : Fin 1))
      = Cert.SoftXor.zsum fun j : Fin 64 => W2 m c (ix2 (0 : Fin 1) j) := by
  rw [sums2_term, shapeCast_a_1a_apply,
    RowReduce.hostReduceAdd_row (W2 m c) _ reducesTo_S1x64_S1_d1 (by decide) h_S_ (0 : Fin 1)]
  rfl

end Cert.KernelIdeal.Glue

end
-- ==== Proof.Blocks.lean ====
/- Where the kernel's pipeline windows sit in their arrays: pure index arithmetic.

   The kernel runs on a grid of 64 points. The input array of 65536 rows is read in blocks of 1024 rows,
   block `t` at point `t`; the result column of 65536 rows is written in blocks of 1024 rows, block `t` at
   point `t`; the four small operands are each one whole block at every point. A block's array coordinate
   on an axis is the block index times the block's extent plus the coordinate inside the block, so point
   `t`'s row `p` is row `1024 · t + p` of the array, a whole-array block is the array itself, and the 64
   output blocks together cover every row: row `r` lies in the block of point `r / 1024`. -/
import proofs.«112180_j8486855377349_2_alg».proof.Proof.Gen.KernelIdeal.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The grid has 64 points. -/
theorem grid_points : cfg0.N = 64 := N_0

/-- The block index of every window at every grid point, decided over the 64 points: the row-blocked
    input and the output move with the point along the rows and stay at 0 along the columns; the four
    whole-array windows stay at block (0, 0). -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row `1024 · t + p` is a row of the 65536-row arrays. -/
theorem row_lt (t : Fin cfg0.N) (p : Nat) (hp : p < 1024) : t.val * 1024 + p < 65536 := by
  have hN : cfg0.N = 64 := N_0
  have ht := t.isLt
  omega

/-- The input block at point `t`, at row `p` and column `k`, is the input array at row `1024 · t + p`, column `k`. -/
theorem rows_read (c : Dev nD) (t : Fin cfg0.N) (p : Fin 1024) (k : Fin 784) :
    (iblk m c 0 t : Vec Ideal S1024x784 .f32) (ix2 p k)
      = (V m c main_arg0 : S65536x784.Idx → EReal) (ix2 (⟨t.val * 1024 + p.val, row_lt t p.val p.isLt⟩ : Fin 65536) k) := by
  obtain ⟨e0, e1, -⟩ := idx_facts t
  show V m c main_arg0 (((cfg0.win 0).blk t).view.emb (ix2 p k)) = _
  refine congrArg (V m c main_arg0) (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 784 + 1 * k.val = k.val; rw [e1]; omega

/-- The first whole-array window's block is its array, at every point. -/
theorem whole1 (c : Dev nD) (t : Fin cfg0.N) : (iblk m c 1 t : Vec Ideal S784x65 .f32) = V m c main_v4 := by
  obtain ⟨-, -, -, -, e0, e1, -⟩ := idx_facts t
  funext y
  show V m c main_v4 (((cfg0.win 1).blk t).view.emb y) = V m c main_v4 y
  refine congrArg (V m c main_v4) (funext fun a => Fin.ext ?_)
  match a with
  | ⟨0, _⟩ => show win0_1.index t (0 : Fin 2) * 784 + 1 * (y 0).val = (y 0).val; rw [e0]; omega
  | ⟨1, _⟩ => show win0_1.index t (1 : Fin 2) * 65 + 1 * (y 1).val = (y 1).val; rw [e1]; omega

/-- The second whole-array window's block is its array, at every point. -/
theorem whole2 (c : Dev nD) (t : Fin cfg0.N) : (iblk m c 2 t : Vec Ideal S1x64 .f32) = V m c main_v6 := by
  obtain ⟨-, -, -, -, -, -, e0, e1, -⟩ := idx_facts t
  funext y
  show V m c main_v6 (((cfg0.win 2).blk t).view.emb y) = V m c main_v6 y
  refine congrArg (V m c main_v6) (funext fun a => Fin.ext ?_)
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- The third whole-array window's block is its array, at every point. -/
theorem whole3 (c : Dev nD) (t : Fin cfg0.N) : (iblk m c 3 t : Vec Ideal S1x64 .f32) = V m c main_arg2 := by
  obtain ⟨-, -, -, -, -, -, -, -, e0, e1, -⟩ := idx_facts t
  funext y
  show V m c main_arg2 (((cfg0.win 3).blk t).view.emb y) = V m c main_arg2 y
  refine congrArg (V m c main_arg2) (funext fun a => Fin.ext ?_)
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- The fourth whole-array window's block is its array, at every point. -/
theorem whole4 (c : Dev nD) (t : Fin cfg0.N) : (iblk m c 4 t : Vec Ideal S1x1 .f32) = V m c main_v8 := by
  obtain ⟨-, -, -, -, -, -, -, -, -, -, e0, e1⟩ := idx_facts t
  funext y
  show V m c main_v8 (((cfg0.win 4).blk t).view.emb y) = V m c main_v8 y
  refine congrArg (V m c main_v8) (funext fun a => Fin.ext ?_)
  match a with
  | ⟨0, _⟩ => show win0_4.index t (0 : Fin 2) * 1 + 1 * (y 0).val = (y 0).val; rw [e0]; omega
  | ⟨1, _⟩ => show win0_4.index t (1 : Fin 2) * 1 + 1 * (y 1).val = (y 1).val; rw [e1]; omega

/-- The output block at point `t` sits at rows `1024 · t … 1024 · t + 1023` of the one column. -/
theorem out_emb (t : Fin cfg0.N) (j : S1024x1.Idx) :
    ((cfg0.win 5).blk t).view.emb j
      = (ix2 (⟨t.val * 1024 + (j 0).val, row_lt t (j 0).val (j 0).isLt⟩ : Fin 65536) (0 : Fin 1) : S65536x1.Idx) := by
  obtain ⟨-, -, e0, e1, -⟩ := idx_facts t
  funext a; apply Fin.ext
  match a with
  | ⟨0, _⟩ => show win0_5.index t (0 : Fin 2) * 1024 + 1 * (j 0).val = t.val * 1024 + (j 0).val; rw [e0]; omega
  | ⟨1, _⟩ =>
    show win0_5.index t (1 : Fin 2) * 1 + 1 * (j 1).val = 0
    have hj : (j 1).val < 1 := (j 1).isLt
    rw [e1]; omega

/-- An index of the result array is in point `t`'s output block iff each coordinate is in the block's
    range on its axis. -/
theorem mem_out (t : Fin cfg0.N) (i : S65536x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v9).slice (win0_5.rect t)).set ↔ _
  rw [View.set_slice_whole, Rect.mem_set_unit]
  exact Iff.rfl

/-- Every index of the result array lies in the output block of some point that writes back: row `r` in
    the block of point `r / 1024`. -/
theorem out_cover : ∀ i : S65536x1.Idx, ∃ t : Fin cfg0.N, (cfg0.win 5).flush t = true ∧ i ∈ ((cfg0.win 5).blk t).view.set := by
  intro i
  have hN : cfg0.N = 64 := N_0
  have hi0 : (i 0).val < 65536 := (i 0).isLt
  have hi1 : (i 1).val < 1 := (i 1).isLt
  obtain ⟨t, ht⟩ : ∃ t : Fin cfg0.N, t.val = (i 0).val / 1024 := ⟨⟨(i 0).val / 1024, by omega⟩, rfl⟩
  obtain ⟨-, -, e0, e1, -⟩ := idx_facts t
  refine ⟨t, flush0_5 t, ?_⟩
  rw [mem_out]
  intro a
  match a with
  | ⟨0, _⟩ =>
    show win0_5.index t (0 : Fin 2) * 1024 ≤ (i 0).val ∧ (i 0).val < win0_5.index t (0 : Fin 2) * 1024 + 1024
    rw [e0]; omega
  | ⟨1, _⟩ =>
    show win0_5.index t (1 : Fin 2) * 1 ≤ (i 1).val ∧ (i 1).val < win0_5.index t (1 : Fin 2) * 1 + 1
    rw [e1]; omega

end Cert.KernelIdeal.Blocks

end
-- ==== Proof.NetValue.lean ====
/- The kernel's result array after the run is the specification, when the first two arguments hold real numbers.

   Grid point `t` writes back rows `1024·t … 1024·t + 1023` of the one output column.  Row `p` of that block is
   the body's row `p` over the point's input blocks: rows `1024·t + p` of the input, and the four small arrays
   the host prepared (the 65-column weight matrix, the weight rows' sums, the second weight row, its sum),
   each a single whole block.  By the row lemma that is the specification's output of batch row `1024·t + p`.
   The 64 blocks tile the 65536 rows, so the array ends holding the specification everywhere. -/
import proofs.«112180_j8486855377349_2_alg».proof.Proof.Gen.KernelIdeal.Value
import proofs.«112180_j8486855377349_2_alg».proof.Proof.Join
import proofs.«112180_j8486855377349_2_alg».proof.Proof.Glue
import proofs.«112180_j8486855377349_2_alg».proof.Proof.Blocks

noncomputable section

namespace Cert.KernelIdeal.NetValue

open Cert.KernelIdeal Cert.KernelIdeal.Gen Cert.SoftXor Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The three argument arrays on core `c`, as arrays of extended reals. -/
abbrev argX (c : Dev nD) : S65536x784.Idx → EReal := m ((c : Thread nD τ).loc main_arg0)
abbrev argW1 (c : Dev nD) : S64x784.Idx → EReal := m ((c : Thread nD τ).loc main_arg1)
abbrev argW2 (c : Dev nD) : S1x64.Idx → EReal := m ((c : Thread nD τ).loc main_arg2)

/-- Row `j` of the block point `t` stores is the specification at batch row `1024·t + j`. -/
theorem block_row (c : Dev nD) (t : Fin cfg0.N)
    (hX : ∀ i, ∃ r : ℝ, argX m c i = r)
    (hW1 : ∀ i, ∃ r : ℝ, argW1 m c i = r) (j : S1024x1.Idx) :
    out0_5 (F := Ideal) (iblk m c 0 t) (iblk m c 1 t) (iblk m c 2 t) (iblk m c 3 t) (iblk m c 4 t) j
      = net (argX m c) (argW1 m c) (argW2 m c)
          (((cfg0.win 5).blk t).view.emb j) := by
  rw [Blocks.out_emb t j]
  obtain ⟨p, z, rfl⟩ : ∃ (p : Fin 1024) (z : Fin 1), j = ix2 p z := ⟨j 0, j 1, eq_ix2 j⟩
  obtain rfl : z = 0 := Subsingleton.elim _ _
  refine Join.row_eq (iblk m c 0 t) (iblk m c 1 t) (iblk m c 2 t) (iblk m c 3 t) (iblk m c 4 t)
    (argX m c) (argW1 m c) (argW2 m c)
    _ p 0 ?_ ?_ ?_ ?_ ?_ ?_ hX hW1
  · exact fun k => (Blocks.rows_read m c t p k).trans (congrFun (V_main_arg0 m c) _)
  · exact fun k j => (congrFun (Blocks.whole1 m c t) _).trans (Glue.aug_left m c k j)
  · exact fun k => (congrFun (Blocks.whole1 m c t) _).trans (Glue.aug_right m c k)
  · exact fun j => (congrFun (Blocks.whole2 m c t) _).trans (Glue.sums1 m c j)
  · exact fun j => (congrFun (Blocks.whole3 m c t) _).trans (congrFun (V_main_arg2 m c) _)
  · exact (congrFun (Blocks.whole4 m c t) _).trans (Glue.sums2 m c)

/-- What point `t` writes back is block `t` of the specification. -/
theorem flushed_eq (c : Dev nD) (t : Fin cfg0.N)
    (hX : ∀ i, ∃ r : ℝ, argX m c i = r)
    (hW1 : ∀ i, ∃ r : ℝ, argW1 m c i = r) :
    (dats m 0 c).flushed 5 t = ((cfg0.win 5).blk t).view.read (Elt Ideal)
      (net (argX m c) (argW1 m c) (argW2 m c)) := by
  rw [Value.flushed5]
  funext j
  exact block_row m c t hX hW1 j

/-- The output array after the run is the specification. -/
theorem final (c : Dev nD)
    (hX : ∀ i, ∃ r : ℝ, argX m c i = r)
    (hW1 : ∀ i, ∃ r : ℝ, argW1 m c i = r) :
    (dats m 0 c).arrAt 5 cfg0.N
      = net (argX m c) (argW1 m c) (argW2 m c) :=
  (dats m 0 c).arrAt_eq_of_cover 5 _ (fun t _ => flushed_eq m c t hX hW1) (Blocks.out_cover)

/-- The kernel's run: every weakly fair execution ends with the result array at the specification of the
    arguments, and the arguments unchanged, when the first two arguments hold real numbers on every device. -/
theorem run (hfin : ∀ c : Dev nD, (∀ i, ∃ r : ℝ, argX m c i = r)
      ∧ (∀ i, ∃ r : ℝ, argW1 m c i = r)) :
    θ_run defs (onTc (τ := τ) (main (F := Ideal))) ⟨m, fun _ => 0, ρ⟩ fun r => ∀ c : Dev nD,
      r.2.mem ((c : Thread nD τ).loc main_v9)
          = net (argX m c) (argW1 m c) (argW2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hfin c).1 (hfin c).2), (h c).2⟩)
    (Value.run_blocks m ρ)

end Cert.KernelIdeal.NetValue

end
-- ==== Proof.RefIsNet.lean ====
/- The reference program, read one element at a time, is the two-layer soft exclusive-or network of the
   specification.

   Each of the reference's operations writes an array whose element at an index depends on one element of
   each operand (or on one row, for a sum along an axis or a contraction). Reading the last array at a
   batch row and following the operands back gives, for the hidden layer, the row sums of the input and of
   the first weight matrix, their contraction, the count `Σ a + Σ b − 2 · Σ a·b`, and the majority
   threshold over 784; and for the output layer the same arrangement over the 64 hidden values and the
   one output weight row, with the threshold over 64. The only work is to identify the composed index
   maps (broadcasts and transposes) with the coordinates they select. -/
import proofs.«112180_j8486855377349_2_alg».proof.Proof.Gen.ReferenceIdeal.Read
import proofs.«112180_j8486855377349_2_alg».proof.Proof.Spec

noncomputable section

namespace Cert.ReferenceIdeal.RefValue

open Cert.ReferenceIdeal Cert.ReferenceIdeal.Read Idealize.ShloMosaic Idealize.ShloMosaic.ValueIdx Cert.SoftXor

variable (x : FVec Ideal S65536x784 .f32) (w1 : FVec Ideal S64x784 .f32) (w2 : FVec Ideal S1x64 .f32)

/-! ## The hidden layer -/

/-- The input's row sum, broadcast along the hidden axis: at `(b, j)` it is the sum of row `b`. -/
theorem rowsum_x_at (b : Fin 65536) (j : Fin 64) :
    val_main_v4 (F := Ideal) x (ix2 b j) = zsum fun k : Fin 784 => x (ix2 b k) := by
  rw [val_main_v4_apply, val_main_v1_apply, val_main_v0_apply, val_main_cst_apply]
  unfold zsum
  exact congrArg (_ + ·) (Finset.sum_congr rfl fun k _ => congrArg x (funext fun a => Fin.ext (by
    match a with | ⟨0, _⟩ => rfl | ⟨1, _⟩ => rfl)))

/-- The first weight matrix's row sum, broadcast along the batch axis: at `(b, j)` it is the sum of row `j`. -/
theorem rowsum_w1_at (b : Fin 65536) (j : Fin 64) :
    val_main_v5 (F := Ideal) w1 (ix2 b j) = zsum fun k : Fin 784 => w1 (ix2 j k) := by
  rw [val_main_v5_apply, val_main_v3_apply, val_main_v2_apply, val_main_cst_0_apply]
  unfold zsum
  exact congrArg (_ + ·) (Finset.sum_congr rfl fun k _ => congrArg w1 (funext fun a => Fin.ext (by
    match a with | ⟨0, _⟩ => rfl | ⟨1, _⟩ => rfl)))

/-- The contraction of the input with the transposed first weight matrix: at `(b, j)` it is the inner
    product of input row `b` with weight row `j`. -/
theorem dot1_at (b : Fin 65536) (j : Fin 64) :
    val_main_v8 (F := Ideal) x w1 (ix2 b j) = ∑ k : Fin 784, x (ix2 b k) * w1 (ix2 j k) := by
  rw [val_main_v8_apply]
  refine Finset.sum_congr rfl fun k _ => ?_
  rw [val_main_v7_apply]
  exact congrArg₂ (· * ·)
    (congrArg x (funext fun a => Fin.ext (by match a with | ⟨0, _⟩ => rfl | ⟨1, _⟩ => rfl)))
    (congrArg w1 (funext fun a => Fin.ext (by match a with | ⟨0, _⟩ => rfl | ⟨1, _⟩ => rfl)))

/-- The hidden layer's soft exclusive-or count at `(b, j)`. -/
theorem count1_at (b : Fin 65536) (j : Fin 64) :
    val_main_v11 (F := Ideal) x w1 (ix2 b j)
      = xorCount (zsum fun k : Fin 784 => x (ix2 b k)) (zsum fun k : Fin 784 => w1 (ix2 j k))
          (∑ k : Fin 784, x (ix2 b k) * w1 (ix2 j k)) := by
  rw [val_main_v11_apply, val_main_v6_apply, val_main_v10_apply, val_main_v9_apply, val_main_cst_1_apply,
    rowsum_x_at, rowsum_w1_at, dot1_at]
  rfl

/-- The majority threshold of the hidden layer, at any index, from the count at that index. -/
theorem majority1_at (i : S65536x64.Idx) :
    val_main_v28 (F := Ideal) x w1 i
      = majority (Ideal.ofBits .f32 0x44440000#32) (Ideal.ofBits .f32 0x43C40000#32)
          (val_main_v11 (F := Ideal) x w1 i) := by
  rw [val_main_v28_apply, val_main_v27_apply, val_main_v26_apply, val_main_v25_apply, val_main_v24_apply,
    val_main_cst_7_apply, val_main_v23_apply, val_main_v22_apply, val_main_cst_6_apply, val_main_v21_apply,
    val_main_v20_apply, val_main_cst_5_apply, val_main_v19_apply, val_main_v18_apply, val_main_v17_apply,
    val_main_v16_apply, val_main_cst_4_apply, val_main_v15_apply, val_main_v14_apply, val_main_cst_3_apply,
    val_main_v13_apply, val_main_v12_apply, val_main_cst_2_apply]
  rfl

/-- A hidden unit of the reference is the specification's. -/
theorem hidden_at (b : Fin 65536) (j : Fin 64) :
    val_main_v28 (F := Ideal) x w1 (ix2 b j) = hidden x w1 b j := by
  rw [majority1_at, count1_at]
  rfl

/-! ## The output layer -/

/-- The hidden values' row sum, as a column: at `(b, 0)` it is the sum over the hidden units of row `b`. -/
theorem rowsum_h_at (i : S65536x1.Idx) :
    val_main_v30 (F := Ideal) x w1 i = zsum fun j : Fin 64 => hidden x w1 (i 0) j := by
  rw [val_main_v30_apply, val_main_v29_apply, val_main_cst_8_apply]
  unfold zsum
  refine congrArg (_ + ·) (Finset.sum_congr rfl fun k _ => ?_)
  have e : idx_main_v29 (idx_main_v30 i) k = ix2 (i 0) k := funext fun a => Fin.ext (by
    match a with | ⟨0, _⟩ => rfl | ⟨1, _⟩ => rfl)
  exact (congrArg (val_main_v28 (F := Ideal) x w1) e).trans (hidden_at x w1 (i 0) k)

/-- The output weight row's sum, broadcast to a column: everywhere the sum of the one row. -/
theorem rowsum_w2_at (i : S65536x1.Idx) :
    val_main_v33 (F := Ideal) w2 i = zsum fun j : Fin 64 => w2 (ix2 (0 : Fin 1) j) := by
  rw [val_main_v33_apply, val_main_v32_apply, val_main_v31_apply, val_main_cst_9_apply]
  unfold zsum
  exact congrArg (_ + ·) (Finset.sum_congr rfl fun k _ => congrArg w2 (funext fun a => Fin.ext (by
    match a with | ⟨0, _⟩ => rfl | ⟨1, _⟩ => rfl)))

/-- The contraction of the hidden values with the transposed output weight row. -/
theorem dot2_at (i : S65536x1.Idx) :
    val_main_v36 (F := Ideal) x w1 w2 i = ∑ j : Fin 64, hidden x w1 (i 0) j * w2 (ix2 (0 : Fin 1) j) := by
  rw [val_main_v36_apply]
  refine Finset.sum_congr rfl fun k _ => ?_
  rw [val_main_v35_apply]
  have el : lidx_main_v36 i k = ix2 (i 0) k := funext fun a => Fin.ext (by
    match a with | ⟨0, _⟩ => rfl | ⟨1, _⟩ => rfl)
  have er : idx_main_v35 (ridx_main_v36 i k) = ix2 (0 : Fin 1) k := funext fun a => Fin.ext (by
    match a with
    | ⟨0, _⟩ => exact congrArg Fin.val (Subsingleton.elim (α := Fin 1) _ _)
    | ⟨1, _⟩ => rfl)
  exact congrArg₂ (· * ·) ((congrArg (val_main_v28 (F := Ideal) x w1) el).trans (hidden_at x w1 (i 0) k))
    (congrArg w2 er)

/-- The output layer's soft exclusive-or count. -/
theorem count2_at (i : S65536x1.Idx) :
    val_main_v39 (F := Ideal) x w1 w2 i
      = xorCount (zsum fun j : Fin 64 => hidden x w1 (i 0) j) (zsum fun j : Fin 64 => w2 (ix2 (0 : Fin 1) j))
          (∑ j : Fin 64, hidden x w1 (i 0) j * w2 (ix2 (0 : Fin 1) j)) := by
  rw [val_main_v39_apply, val_main_v34_apply, val_main_v38_apply, val_main_v37_apply, val_main_cst_10_apply,
    rowsum_h_at, rowsum_w2_at, dot2_at]
  rfl

/-- The majority threshold of the output layer, at any index, from the count at that index. -/
theorem majority2_at (i : S65536x1.Idx) :
    val_main_v56 (F := Ideal) x w1 w2 i
      = majority (Ideal.ofBits .f32 0x42800000#32) (Ideal.ofBits .f32 0x42000000#32)
          (val_main_v39 (F := Ideal) x w1 w2 i) := by
  rw [val_main_v56_apply, val_main_v55_apply, val_main_v54_apply, val_main_v53_apply, val_main_v52_apply,
    val_main_cst_16_apply, val_main_v51_apply, val_main_v50_apply, val_main_cst_15_apply, val_main_v49_apply,
    val_main_v48_apply, val_main_cst_14_apply, val_main_v47_apply, val_main_v46_apply, val_main_v45_apply,
    val_main_v44_apply, val_main_cst_13_apply, val_main_v43_apply, val_main_v42_apply, val_main_cst_12_apply,
    val_main_v41_apply, val_main_v40_apply, val_main_cst_11_apply]
  rfl

/-- The reference's result array is the specification's network. -/
theorem ref_is_net (x : FVec Ideal Cert.ReferenceIdeal.S65536x784 .f32) (w1 : FVec Ideal Cert.ReferenceIdeal.S64x784 .f32)
    (w2 : FVec Ideal Cert.ReferenceIdeal.S1x64 .f32) :
    Cert.ReferenceIdeal.Read.val_main_v56 (F := Ideal) x w1 w2 = Cert.SoftXor.net x w1 w2 := by
  funext i
  rw [majority2_at, count2_at]
  rfl

end Cert.ReferenceIdeal.RefValue

end
-- ==== Proof.LibFiniteAll.lean ====
/-
  `all (|a| < +inf)` at the ideal values: every entry of `a` is a real number.

  At the ideal values an entry of a float array is an extended real, `|a|` is `max a (-a)` and the f32 word
  `0x7F800000` is `+inf`.  So `|a| < +inf` excludes exactly the two infinities, and what is left is a real number.
  A reduction by `and` from `true` over all axes is `true` only if every entry is, which gives the statement for a
  whole array of any shape (`all_real`), in the form a precondition "every float input is finite" prints it: the
  comparison of `abs a` against the scalar `0x7F800000` broadcast to `a`'s shape, reduced to a rank-0 result.
-/
import Idealize.ShloMosaic.PureOps.Ideal
import Idealize.ShloMosaic.Lib.ReduceAll
import Idealize.ShloMosaic.Lib.ValueIdx
import Idealize.ShloMosaic.Lib.Pipeline.Value

noncomputable section

namespace Idealize.ShloMosaic.FiniteAll

open Idealize.ShloMosaic

/-- The word `0x7F800000` denotes `+inf`. -/
theorem inf_word : Ideal.ofBits .f32 0x7F800000#32 = ⊤ := by
  simp [Ideal.ofBits, Ideal.ieee]

/-- An extended real whose absolute value is below `+inf` is a real number. -/
theorem real_of_abs_lt_inf (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | coe r => exact ⟨r, rfl⟩
  | top => simp [Ideal.cmp] at h

/-- A rank-0 array has one index. -/
instance subsingleton_idx0 : Subsingleton (⟨0, ![]⟩ : Shape).Idx := ⟨fun _ _ => funext fun d => d.elim0⟩

/-- One array: if `all (|a| < +inf)` is `true` then every entry of `a` is a real number. -/
theorem all_real {s : Shape} {axes : List (Fin s.rank)} (a : FVec Ideal s .f32)
    (bc : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
          (cmpf .olt (Host.absf a) (broadcastInDim s ![] bc (constant ⟨0, ![]⟩ .f32 0x7F800000#32)))
          init hr hu ValueIdx.ix0 = 1#1)
    (i : s.Idx) : ∃ r : ℝ, a i = r := by
  have h := Host.reduce_andi_all _ init hr hu ValueIdx.ix0 e i
  refine real_of_abs_lt_inf (a i) ?_
  have hb : broadcastInDim s ![] bc (constant (F := Ideal) ⟨0, ![]⟩ .f32 0x7F800000#32) i
      = Ideal.ofBits .f32 0x7F800000#32 :=
    broadcastInDim_apply _ bc _ i ValueIdx.ix0 (fun a => a.elim0)
  rw [← hb]
  exact h

end Idealize.ShloMosaic.FiniteAll

end
-- ==== Proof.FiniteInputs.lean ====
/- From the precondition "every float input is finite" to "every entry of every input is a real number".

   The precondition is the conjunction of three tests, one per input array: `all (|a| < +inf)`. A
   conjunction of bits is `1` only if each bit is, and one such test being `1` says every entry of its
   array is an extended real other than the two infinities, that is, a real number. -/
import proofs.«112180_j8486855377349_2_alg».proof.Pre_finite_inputs
import proofs.«112180_j8486855377349_2_alg».proof.Proof.LibFiniteAll

noncomputable section

namespace Cert.SoftXor

open Idealize.ShloMosaic

/-- If the three finiteness tests hold together, every entry of each of the three inputs is a real number. -/
theorem reals_of_finite [Cert.Pre_finite_inputs.Facts]
    (x : FVec Ideal Cert.Pre_finite_inputs.S65536x784 .f32)
    (w1 : FVec Ideal Cert.Pre_finite_inputs.S64x784 .f32)
    (w2 : FVec Ideal Cert.Pre_finite_inputs.S1x64 .f32)
    (h : Cert.Pre_finite_inputs.fn (F := Ideal) x w1 w2 = fun _ => 1#1) :
    (∀ i, ∃ r : ℝ, x i = r) ∧ (∀ i, ∃ r : ℝ, w1 i = r) ∧ (∀ i, ∃ r : ℝ, w2 i = r) := by
  have h0 := congrFun h ValueIdx.ix0
  dsimp only [Cert.Pre_finite_inputs.fn, andi] at h0
  obtain ⟨h12, h3⟩ := IntOp.andi_eq_one.1 h0
  obtain ⟨h1, h2⟩ := IntOp.andi_eq_one.1 h12
  exact ⟨FiniteAll.all_real x _ _ _ _ h1, FiniteAll.all_real w1 _ _ _ _ h2, FiniteAll.all_real w2 _ _ _ _ h3⟩

end Cert.SoftXor

end
-- ==== Proof.lean ====
/- The kernel and its reference compute the same two-layer soft exclusive-or network.

   Both programs take `x : [65536, 784]`, `w1 : [64, 784]`, `w2 : [1, 64]`.  A layer sends a row `a` and a
   weight row `b` to the count `Σ a + Σ b − 2·Σ a·b` and then through a majority threshold over the fan-in `n`:
   `s + (hard − s)` with `s` the sigmoid of `10·(count/n − 1/2)` and `hard` the bit `count > n/2`.  The
   reference computes the three sums separately on the host, divides by `n` and spells the sigmoid
   `1/(1 + e^(−z))`.  The kernel, per block of 1024 rows, multiplies the block once by a 65-column matrix
   the host prepared — `−2·w1ᵀ` with a column of ones appended — so that one product yields both `Σ a` and
   `−2·Σ a·b`; it multiplies by the reciprocal of `n` (for 784 a named constant denoting `1/784`; `1/64` is
   exact), uses one logistic, and takes the second layer's sums as lane reductions.

   Over the extended reals the two agree index by index once `x` and `w1` hold real numbers, which the
   precondition gives: folding `−2` into the weights and summing `a·1` use distributivity, which fails at
   infinities; everything else (times `1/n` against divided by `n`, the two spellings of the sigmoid, the
   comparison bit read signed after widening or unsigned, a zero summand, the tiling into 64 blocks)
   holds for all extended reals.  The modules: `Spec` states the function; `RefIsNet` reads the
   reference's run as it; `Body` reads one grid point's stored block; `Glue` reads the arrays the host
   prepares; `Blocks` places the windows' blocks in their arrays; `Laws` and `FiniteInputs` are the algebra
   and the real-valuedness of the inputs; `Join` and `NetValue` put the kernel's side together.  The three
   frames are the generated frame runs, and the one ledger entry is the named constant's rule. -/
import proofs.«112180_j8486855377349_2_alg».proof.Defs
import proofs.«112180_j8486855377349_2_alg».proof.Proof.Gen.Kernel
import proofs.«112180_j8486855377349_2_alg».proof.Proof.Gen.Kernel.Skeleton
import proofs.«112180_j8486855377349_2_alg».proof.Proof.Gen.Kernel.Launch
import proofs.«112180_j8486855377349_2_alg».proof.Proof.Gen.Kernel.Points
import proofs.«112180_j8486855377349_2_alg».proof.Proof.Gen.Kernel.Frame
import proofs.«112180_j8486855377349_2_alg».proof.Proof.Gen.KernelIdeal
import proofs.«112180_j8486855377349_2_alg».proof.Proof.Gen.KernelIdeal.Skeleton
import proofs.«112180_j8486855377349_2_alg».proof.Proof.Gen.KernelIdeal.Launch
import proofs.«112180_j8486855377349_2_alg».proof.Proof.Gen.KernelIdeal.Points
import proofs.«112180_j8486855377349_2_alg».proof.Proof.Gen.KernelIdeal.Frame
import proofs.«112180_j8486855377349_2_alg».proof.Proof.Gen.KernelIdeal.Value
import proofs.«112180_j8486855377349_2_alg».proof.Proof.Gen.ReferenceIdeal
import proofs.«112180_j8486855377349_2_alg».proof.Proof.Gen.ReferenceIdeal.Run
import proofs.«112180_j8486855377349_2_alg».proof.Proof.Gen.ReferenceIdeal.Read
import proofs.«112180_j8486855377349_2_alg».proof.Proof.Gen.Pre_finite_inputs
import proofs.«112180_j8486855377349_2_alg».proof.Proof.NetValue
import proofs.«112180_j8486855377349_2_alg».proof.Proof.RefIsNet
import proofs.«112180_j8486855377349_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments unchanged: its generated frame run. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is host operations only: its generated run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the kernel's literal `0.00127551018` is named, and the table gives the
    name the rational `1/784`. -/
theorem preserves : Cert.preserves_Kernel_KernelIdeal :=
  IdealRules.named_const.statement Cert.KernelIdeal.κ "inv_784" .f32 0x3AA72F05#32 ((1 / 784 : ℝ) : EReal) rfl

/-- From memories agreeing on the arguments, both runs end with the result array at the specification of the
    arguments: the kernel's by its value leg (its arguments real by the precondition), the reference's by its
    generated run read as the specification. -/
theorem algebraic : Cert.algebraic_KernelIdeal_ReferenceIdeal := by
  intro m ρ m' ρ' hpre hagree
  have hfin := fun c => Cert.SoftXor.reals_of_finite _ _ _ (hpre c)
  refine ⟨_, Cert.KernelIdeal.NetValue.run m ρ (fun c => ⟨(hfin c).1, (hfin c).2.1⟩), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.ReferenceIdeal.RefValue.ref_is_net,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
